-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 53
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S100000x1, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x1, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S128x128, .f32⟩
  | .hbm, ⟨50, _⟩ => ⟨S1x128, .f32⟩
  | .hbm, ⟨51, _⟩ => ⟨S1x128, .f32⟩
  | .hbm, ⟨52, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S1x1600000 : Shape := ⟨2, ![1, 1600000]⟩
abbrev S1600000x1 : Shape := ⟨2, ![1600000, 1]⟩
abbrev S1x128 : Shape := ⟨2, ![1, 128]⟩
abbrev S1600000x128 : Shape := ⟨2, ![1600000, 128]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S1x128, .f32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1600000x1_S1600000x128_0_1 : S1600000x1.BroadcastsInDim S1600000x128 (![0, 1] : Fin 2 → Fin S1600000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S_S100000x128 : S_.BroadcastsInDim S100000x128 (![] : Fin 0 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.FiniteArgs.lean ====
/-
  The finiteness test, read back at three of its arguments.

  The test is the one-bit word  all(|a0| < +∞) & all(|a2| < +∞) & all(|a3| < +∞) & … & all(|a8| < +∞): a conjunction of
  one bit per floating-point argument, each bit the conjunction over all indices of the comparison bits "|a i| < +∞".

    * `real_of_all`: one such bit being 1 makes every entry of its argument a real number — a conjunction that is 1 met
      only 1s, and |x| = max x (-x) < +∞ excludes both infinities.
    * `real_entries`: the whole test being 1 makes every entry of a2, a3 and a4 a real number — a conjunction of bits
      that is 1 has every conjunct 1.
-/
import proofs.«156908_j53077205844582_2_alg».proof.Pre_finite_inputs
import proofs.«156908_j53077205844582_2_alg».proof.Proof.Gen.Pre_finite_inputs
import proofs.«156908_j53077205844582_2_alg».proof.Proof.LibRealEntries
import Idealize.ShloMosaic.Lib.ReduceAll
import Idealize.ShloMosaic.Lib.ValueIdx
import Idealize.ShloMosaic.PureOps.Ideal

noncomputable section

namespace Cert.FiniteArgs

open Idealize.ShloMosaic Idealize.ShloMosaic.ValueIdx

/-- The rank-0 shape has one index. -/
instance subsingleton_scalar_idx : Subsingleton Cert.Pre_finite_inputs.S_.Idx := ⟨fun a b => funext fun d => d.elim0⟩

/-- One conjunct of the test: if the conjunction over all indices of the bits "|a i| < +∞" is 1, every entry of a is a real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, a i = (r : EReal) :=
  Cert.LibRealEntries.real_of_cmp (a i) (Host.reduce_andi_all _ _ hr hu _ e i)

/-- The test "every entry of every floating-point argument is finite" being 1 makes every entry of the arguments
    a2, a3 and a4 a real number: the test is the conjunction of one "all entries finite" bit per argument, so each of
    these bits is 1, and such a bit being 1 says every entry has |x| < +∞. -/
theorem real_entries [Cert.Pre_finite_inputs.Facts]
    (a0 : FVec Ideal Cert.Pre_finite_inputs.S100000x128 .f32) (a1 : IVec Cert.Pre_finite_inputs.S2x1600000 32)
    (a2 : FVec Ideal Cert.Pre_finite_inputs.S1600000 .f32) (a3 a4 : FVec Ideal Cert.Pre_finite_inputs.S128 .f32)
    (a5 : FVec Ideal Cert.Pre_finite_inputs.S128x128 .f32) (a6 : FVec Ideal Cert.Pre_finite_inputs.S128 .f32)
    (a7 : FVec Ideal Cert.Pre_finite_inputs.S128x128 .f32) (a8 : FVec Ideal Cert.Pre_finite_inputs.S128 .f32)
    (h : Cert.Pre_finite_inputs.fn (F := Ideal) a0 a1 a2 a3 a4 a5 a6 a7 a8 = fun _ => 1#1) :
    (∀ i, ∃ r : ℝ, a2 i = (r : EReal)) ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1, Cert.Pre_finite_inputs.fn_part2] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨-, h7⟩ := IntOp.andi_eq_one.1 h8
  exact ⟨fun i => real_of_all a2 _ _ _ h7 i, fun i => real_of_all a3 _ _ _ h12 i, fun i => real_of_all a4 _ _ _ h17 i⟩

end Cert.FiniteArgs

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«156908_j53077205844582_2_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.NodeUpdate.lean ====
/-
  The node update of the message-passing layer, as one function on the extended reals, in its two spellings.
  For an M×K array t of pre-activations, K×K weights A₁, A₂ and one-row biases r₁, r₂ (shape [1, K]) the update is
      (a, c) ↦ Σ_{k<K} max (Σ_{j<K} t(a,j)·A₁(j,k) + r₁(0,k)) 0 · A₂(k,c) + r₂(0,c) :
  a dense stage with its cut-off at 0 followed by a second product-plus-bias. Both the matrix unit's spelling (two
  products into zero accumulators over operands narrowed to a 16-bit format — the identity on the extended reals — with
  the bias rows broadcast over the rows) and the host's (two general products with the rows broadcast along both axes)
  are this function, and a row of the update depends on t only through the same row.
-/
import Idealize.ShloMosaic.PureOps.Ideal.Laws
import Idealize.ShloMosaic.Lib.ValueIdx
import Idealize.ShloMosaic.Lib.Pipeline.Value
import proofs.«156908_j53077205844582_2_alg».proof.Proof.LibPlainDot
import proofs.«156908_j53077205844582_2_alg».proof.Proof.LibDenseStage

noncomputable section

namespace Cert.NodeUpdate

open Idealize.ShloMosaic Idealize.ShloMosaic.ValueIdx Cert.LibDenseStage

variable (M K : Nat)

/-- The second layer: h·A₂ plus the bias row. -/
def layer2 (h : FVec Ideal ⟨2, ![M, K]⟩ .f32) (A2 : FVec Ideal ⟨2, ![K, K]⟩ .f32) (r2 : FVec Ideal ⟨2, ![1, K]⟩ .f32) :
    FVec Ideal ⟨2, ![M, K]⟩ .f32 :=
  fun i => ∑ k : Fin K, h (ix2 (i 0) k) * A2 (ix2 k (i 1)) + r2 (ix2 (0 : Fin 1) (i 1))

/-- The whole update: the dense stage, then the second layer. -/
def update (t : FVec Ideal ⟨2, ![M, K]⟩ .f32) (A1 : FVec Ideal ⟨2, ![K, K]⟩ .f32) (r1 : FVec Ideal ⟨2, ![1, K]⟩ .f32)
    (A2 : FVec Ideal ⟨2, ![K, K]⟩ .f32) (r2 : FVec Ideal ⟨2, ![1, K]⟩ .f32) : FVec Ideal ⟨2, ![M, K]⟩ .f32 :=
  layer2 M K (stage M K K t A1 r1) A2 r2

theorem update_apply (t : FVec Ideal ⟨2, ![M, K]⟩ .f32) (A1 : FVec Ideal ⟨2, ![K, K]⟩ .f32) (r1 : FVec Ideal ⟨2, ![1, K]⟩ .f32)
    (A2 : FVec Ideal ⟨2, ![K, K]⟩ .f32) (r2 : FVec Ideal ⟨2, ![1, K]⟩ .f32) (a : Fin M) (c : Fin K) :
    update M K t A1 r1 A2 r2 (ix2 a c)
      = ∑ k : Fin K, stage M K K t A1 r1 (ix2 a k) * A2 (ix2 k c) + r2 (ix2 (0 : Fin 1) c) := rfl

/-- Row a' of the update of a block of rows is row a of the update of the whole, when the block's row a' is the whole's
    row a: the sum over k only meets the stage in that row, and the stage in a row only meets t in that row. -/
theorem update_rows (M' : Nat) (T : FVec Ideal ⟨2, ![M, K]⟩ .f32) (t : FVec Ideal ⟨2, ![M', K]⟩ .f32)
    (A1 : FVec Ideal ⟨2, ![K, K]⟩ .f32) (r1 : FVec Ideal ⟨2, ![1, K]⟩ .f32)
    (A2 : FVec Ideal ⟨2, ![K, K]⟩ .f32) (r2 : FVec Ideal ⟨2, ![1, K]⟩ .f32) (a : Fin M) (a' : Fin M')
    (h : ∀ k : Fin K, t (ix2 a' k) = T (ix2 a k)) (c : Fin K) :
    update M' K t A1 r1 A2 r2 (ix2 a' c) = update M K T A1 r1 A2 r2 (ix2 a c) := by
  rw [update_apply, update_apply]
  exact congrArg (fun s => s + r2 (ix2 (0 : Fin 1) c))
    (Finset.sum_congr rfl fun k _ => by rw [stage_rows M K K M' T t A1 r1 a a' h k])

/-- The matrix unit's spelling of the update. -/
theorem update_of_matmul (t : FVec Ideal ⟨2, ![M, K]⟩ .f32) (A1 : FVec Ideal ⟨2, ![K, K]⟩ .f32) (r1 : FVec Ideal ⟨2, ![1, K]⟩ .f32)
    (A2 : FVec Ideal ⟨2, ![K, K]⟩ .f32) (r2 : FVec Ideal ⟨2, ![1, K]⟩ .f32)
    (h1 h2 h3 h4 : FTy.bf16.bits < FTy.f32.bits)
    (hcA : (⟨2, ![K, K]⟩ : Shape).ShapeCasts ⟨2, ![K, K]⟩)
    (hc : (⟨2, ![1, K]⟩ : Shape).ShapeCasts ⟨2, ![1, K]⟩) (hb : (⟨2, ![1, K]⟩ : Shape).Broadcasts ⟨2, ![M, K]⟩) :
    addf (matmul (F := Ideal) (DotDims.plain M K K) none
          (truncf .bf16
            (maximumf (addf (matmul (F := Ideal) (DotDims.plain M K K) none (truncf .bf16 t h1)
                  (truncf .bf16 (shapeCast ⟨2, ![K, K]⟩ A1 hcA) h2) (constant ⟨2, ![M, K]⟩ .f32 0x00000000#32))
                (broadcastTo ⟨2, ![M, K]⟩ (shapeCast ⟨2, ![1, K]⟩ r1 hc) hb))
              (broadcast ⟨2, ![M, K]⟩ (Scalar.ofBits (F := Ideal) .f32 0x00000000#32))) h3)
          (truncf .bf16 (shapeCast ⟨2, ![K, K]⟩ A2 hcA) h4) (constant ⟨2, ![M, K]⟩ .f32 0x00000000#32))
        (broadcastTo ⟨2, ![M, K]⟩ (shapeCast ⟨2, ![1, K]⟩ r2 hc) hb)
      = update M K t A1 r1 A2 r2 := by
  rw [shapeCast_self A1 hcA, shapeCast_self A2 hcA, stage_of_matmul M K K t A1 r1 h1 h2 hc hb]
  funext i
  obtain ⟨a, c, rfl⟩ : ∃ (a : Fin M) (c : Fin K), i = ix2 a c := ⟨i 0, i 1, eq_ix2 i⟩
  rw [addf_apply, Cert.LibPlainDot.matmul_plain, shapeCast_self, row_broadcastTo, update_apply]
  rfl

/-- The host's spelling of the update. -/
theorem update_of_dotGeneral (t : FVec Ideal ⟨2, ![M, K]⟩ .f32) (A1 : FVec Ideal ⟨2, ![K, K]⟩ .f32) (r1 : FVec Ideal ⟨2, ![1, K]⟩ .f32)
    (A2 : FVec Ideal ⟨2, ![K, K]⟩ .f32) (r2 : FVec Ideal ⟨2, ![1, K]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    addf (Host.dotGeneral (F := Ideal) (DotDims.plain M K K) none
          (maximumf (addf (Host.dotGeneral (F := Ideal) (DotDims.plain M K K) none t A1) (broadcastInDim ⟨2, ![M, K]⟩ ![0, 1] hb r1))
            (broadcastInDim ⟨2, ![M, K]⟩ ![] h0 (constant (F := Ideal) ⟨0, ![]⟩ .f32 0x00000000#32)))
          A2)
        (broadcastInDim ⟨2, ![M, K]⟩ ![0, 1] hb r2)
      = update M K t A1 r1 A2 r2 := by
  rw [stage_of_dotGeneral M K K t A1 r1 hb h0]
  funext i
  obtain ⟨a, c, rfl⟩ : ∃ (a : Fin M) (c : Fin K), i = ix2 a c := ⟨i 0, i 1, eq_ix2 i⟩
  rw [addf_apply, Cert.LibPlainDot.dotGeneral_plain, row_broadcastInDim, update_apply]
  rfl

end Cert.NodeUpdate

end
-- ==== Proof.KernelValue.lean ====
/-
  What the idealized kernel leaves in its result array, as ONE function of the arrays the region finds.
  The grid has 20 points; point t stages rows 5000·t … 5000·t+4999 of the pre-activation array and of x, the two weight
  matrices and the two bias rows whole, and writes back the same rows of the result. The body's value on a block is the
  node update (NodeUpdate.lean) of the block s + 1·x; a row of the update only meets the same row of its first operand,
  so block t of the result is block t of the update of the whole arrays, and the 20 blocks tile the result.
-/
import proofs.«156908_j53077205844582_2_alg».proof.Proof.Gen.KernelIdeal.Value
import proofs.«156908_j53077205844582_2_alg».proof.Proof.NodeUpdate

noncomputable section

namespace Cert.KernelIdeal.NodeValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- s + 1·x, entry by entry (the word 0x3F800000 kept as a word: both programs multiply x by it). -/
def preact {s : Shape} (sc x : s.Idx → EReal) : s.Idx → EReal :=
  addf (F := Ideal) (φ := .f32) sc (mulf (broadcast s (Scalar.ofBits (F := Ideal) .f32 0x3F800000#32)) x)

/-- The body's stored value is the node update of its loaded blocks. -/
theorem pay_eq (v0 v2 : Vec Ideal S5000x128 .f32) (v7 : Vec Ideal S128x128 .f32) (v11 : Vec Ideal S1x128 .f32)
    (v18 : Vec Ideal S128x128 .f32) (v22 : Vec Ideal S1x128 .f32) :
    k0_pay1 (F := Ideal) v0 v2 v7 v11 v18 v22 = Cert.NodeUpdate.update 5000 128 (preact v0 v2) v7 v11 v18 v22 := by
  refine (Cert.NodeUpdate.update_of_matmul 5000 128
    (addf (F := Ideal) (φ := .f32) (shapeCast S5000x128 v0 shapeCasts_S5000x128_S5000x128)
      (mulf (broadcast S5000x128 (Scalar.ofBits (F := Ideal) .f32 0x3F800000#32)) v2)) v7 v11 v18 v22
    bitsLt_bf16_f32 bitsLt_bf16_f32 bitsLt_bf16_f32 bitsLt_bf16_f32
    shapeCasts_S128x128_S128x128 shapeCasts_S1x128_S1x128 broadcasts_S1x128_S5000x128).trans ?_
  rw [shapeCast_self]
  rfl

/-- The array the kernel's result ends holding: the node update of s + 1·x with the weights and bias rows as the region
    finds them. -/
def G (c : Dev nD) : S100000x128.Idx → EReal :=
  Cert.NodeUpdate.update 100000 128
    (preact (V m c main_v32 : S100000x128.Idx → EReal) (V m c main_arg0 : S100000x128.Idx → EReal))
    (V m c main_v33 : S128x128.Idx → EReal) (V m c main_v35 : S1x128.Idx → EReal)
    (V m c main_v34 : S128x128.Idx → EReal) (V m c main_v36 : S1x128.Idx → EReal)

/-- The index maps over the grid: the two row-tiled inputs move with the output, whose block row is the point; the four
    whole-array inputs stay at block (0, 0). -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A row of the update of a block is the row of the update of the whole array that the block's row is. -/
theorem update_block (T : S100000x128.Idx → EReal) (tb : S5000x128.Idx → EReal)
    (A1 : S128x128.Idx → EReal) (R1 : S1x128.Idx → EReal) (A2 : S128x128.Idx → EReal) (R2 : S1x128.Idx → EReal)
    (j : S5000x128.Idx) (i : S100000x128.Idx) (h1 : (i 1).val = (j 1).val)
    (hrow : ∀ k : Fin 128, tb (ix2 (j 0) k) = T (ix2 (i 0) k)) :
    Cert.NodeUpdate.update 5000 128 tb A1 R1 A2 R2 j = Cert.NodeUpdate.update 100000 128 T A1 R1 A2 R2 i := by
  have e1 : i 1 = j 1 := Fin.ext h1
  rw [eq_ix2 j, eq_ix2 i, e1]
  exact Cert.NodeUpdate.update_rows 100000 128 5000 T tb A1 R1 A2 R2 (i 0) (j 0) hrow (j 1)

end Cert.KernelIdeal.NodeValue

end
-- ==== Proof.KernelBlocks.lean ====
/-
  The blocks the kernel's body loads at a grid point, read off the arrays the region finds: the four whole-array windows
  give the arrays themselves, the two row-tiled windows give rows 5000·t … of theirs; and, from these, a point's block of
  the node update as a block of the update of the whole arrays.
-/
import proofs.«156908_j53077205844582_2_alg».proof.Proof.KernelValue

noncomputable section

namespace Cert.KernelIdeal.NodeValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The blocks the body loads, read off the arrays -/

/-- The whole-array windows: block (0, 0) of an array of the block's own shape is the array. -/
theorem iblk2 (c : Dev nD) (t : Fin cfg0.N) : iblk m c 2 t = (V m c main_v33 : S128x128.Idx → EReal) := by
  obtain ⟨-, -, -, -, -, -, e0, e1, -⟩ := idx_facts t
  funext y
  show (V m c main_v33 : S128x128.Idx → EReal) (((cfg0.win 2).blk t).view.emb y) = _
  congr 1
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk3 (c : Dev nD) (t : Fin cfg0.N) : iblk m c 3 t = (V m c main_v35 : S1x128.Idx → EReal) := by
  obtain ⟨-, -, -, -, -, -, -, -, e0, e1, -⟩ := idx_facts t
  funext y
  show (V m c main_v35 : S1x128.Idx → EReal) (((cfg0.win 3).blk t).view.emb y) = _
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem iblk4 (c : Dev nD) (t : Fin cfg0.N) : iblk m c 4 t = (V m c main_v34 : S128x128.Idx → EReal) := by
  obtain ⟨-, -, -, -, -, -, -, -, -, -, e0, e1, -⟩ := idx_facts t
  funext y
  show (V m c main_v34 : S128x128.Idx → EReal) (((cfg0.win 4).blk t).view.emb y) = _
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem iblk5 (c : Dev nD) (t : Fin cfg0.N) : iblk m c 5 t = (V m c main_v36 : S1x128.Idx → EReal) := by
  obtain ⟨-, -, -, -, -, -, -, -, -, -, -, -, e0, e1⟩ := idx_facts t
  funext y
  show (V m c main_v36 : S1x128.Idx → EReal) (((cfg0.win 5).blk t).view.emb y) = _
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Point t's block of the update, from what the two row-tiled blocks hold: a row of the update only meets the same row
    of s + 1·x. -/
theorem update_of_blocks (X32 X0 : S100000x128.Idx → EReal) (A1 : S128x128.Idx → EReal) (R1 : S1x128.Idx → EReal)
    (A2 : S128x128.Idx → EReal) (R2 : S1x128.Idx → EReal) (b0 b1 : S5000x128.Idx → EReal)
    (j : S5000x128.Idx) (i : S100000x128.Idx) (hc : (i 1).val = (j 1).val)
    (h0 : ∀ k : Fin 128, b0 (ix2 (j 0) k) = X32 (ix2 (i 0) k)) (h1 : ∀ k : Fin 128, b1 (ix2 (j 0) k) = X0 (ix2 (i 0) k)) :
    Cert.NodeUpdate.update 5000 128 (preact b0 b1) A1 R1 A2 R2 j
      = Cert.NodeUpdate.update 100000 128 (preact X32 X0) A1 R1 A2 R2 i := by
  refine update_block _ _ _ _ _ _ j i hc fun k => ?_
  show b0 (ix2 (j 0) k) + Ideal.ofBits .f32 0x3F800000#32 * b1 (ix2 (j 0) k)
    = X32 (ix2 (i 0) k) + Ideal.ofBits .f32 0x3F800000#32 * X0 (ix2 (i 0) k)
  rw [h0 k, h1 k]

/-- A row-tiled input block of ANY array X of the pre-activations' shape, at (y, k): X at (the output block's row for y, k).
    Stated for an arbitrary array so that nothing ever looks inside the array the host operations wrote. -/
theorem read_rows0 (X : S100000x128.Idx → EReal) (t : Fin cfg0.N) (j : S5000x128.Idx) (k : Fin 128) :
    ((cfg0.win 0).blk t).view.read (Elt Ideal) X (ix2 (j 0) k) = X (ix2 ((((cfg0.win 6).blk t).view.emb j) 0) k) := by
  obtain ⟨o0, o1, a0, a1, -⟩ := idx_facts t
  show X (((cfg0.win 0).blk t).view.emb (ix2 (j 0) k)) = _
  refine congrArg X (funext fun a => Fin.ext ?_)
  match a with
  | ⟨0, _⟩ => show win0_0.index t (0 : Fin 2) * 5000 + 1 * (j 0).val = win0_6.index t (0 : Fin 2) * 5000 + 1 * (j 0).val; omega
  | ⟨1, _⟩ => show win0_0.index t (1 : Fin 2) * 128 + 1 * k.val = k.val; omega

theorem read_rows1 (X : S100000x128.Idx → EReal) (t : Fin cfg0.N) (j : S5000x128.Idx) (k : Fin 128) :
    ((cfg0.win 1).blk t).view.read (Elt Ideal) X (ix2 (j 0) k) = X (ix2 ((((cfg0.win 6).blk t).view.emb j) 0) k) := by
  obtain ⟨o0, o1, -, -, b0, b1, -⟩ := idx_facts t
  show X (((cfg0.win 1).blk t).view.emb (ix2 (j 0) k)) = _
  refine congrArg X (funext fun a => Fin.ext ?_)
  match a with
  | ⟨0, _⟩ => show win0_1.index t (0 : Fin 2) * 5000 + 1 * (j 0).val = win0_6.index t (0 : Fin 2) * 5000 + 1 * (j 0).val; omega
  | ⟨1, _⟩ => show win0_1.index t (1 : Fin 2) * 128 + 1 * k.val = k.val; omega

theorem iblk0_apply (c : Dev nD) (t : Fin cfg0.N) (j : S5000x128.Idx) (k : Fin 128) :
    iblk m c 0 t (ix2 (j 0) k) = (V m c main_v32 : S100000x128.Idx → EReal) (ix2 ((((cfg0.win 6).blk t).view.emb j) 0) k) :=
  read_rows0 (V m c main_v32 : S100000x128.Idx → EReal) t j k

theorem iblk1_apply (c : Dev nD) (t : Fin cfg0.N) (j : S5000x128.Idx) (k : Fin 128) :
    iblk m c 1 t (ix2 (j 0) k) = (V m c main_arg0 : S100000x128.Idx → EReal) (ix2 ((((cfg0.win 6).blk t).view.emb j) 0) k) :=
  read_rows1 (V m c main_arg0 : S100000x128.Idx → EReal) t j k

end Cert.KernelIdeal.NodeValue

end
-- ==== Proof.KernelFinal.lean ====
/-
  The kernel's result array after the run. Point t writes back block t of G (the node update of the whole arrays): the
  body's value on the loaded blocks is the update of the blocks, and a row of the update is decided by the same row of
  s + 1·x. The 20 blocks of 5000 rows tile the 100000 rows, so the result array IS G.
-/
import proofs.«156908_j53077205844582_2_alg».proof.Proof.KernelBlocks

noncomputable section

namespace Cert.KernelIdeal.NodeValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## What a point writes back, the cover, the final array -/

/-- Reading ANY array of the result's shape through point t's output block: the array at the block's index. (For an
    arbitrary array, so that the reading never looks inside the array.) -/
theorem read_blk6 (F : S100000x128.Idx → EReal) (t : Fin cfg0.N) (j : S5000x128.Idx) :
    View.read (Elt Ideal) ((View.whole main_v37).slice ((win0 6).rect t)) F j = F (((cfg0.win 6).blk t).view.emb j) := rfl

/-- The output window is not cut at the array's end: what is written back of a block is the block. -/
theorem cut_blk6 (X : S5000x128.Idx → EReal) (t : Fin cfg0.N) (j : S5000x128.Idx) :
    (win0 6).cut (grid0.coords t) X j = X j := rfl

/-- WHAT POINT t WRITES BACK is block t of G. -/
theorem flushed_eq (c : Dev nD) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S5000x128) hz, View.ld_unit_zero (S := S128x128) hz, View.ld_unit_zero (S := S1x128) hz]
  rw [pay_eq]
  rw [iblk2, iblk3, iblk4, iblk5]
  funext j
  have h0 := iblk0_apply m c t j
  have h1 := iblk1_apply m c t j
  have hc : ((((cfg0.win 6).blk t).view.emb j) 1).val = (j 1).val := by
    obtain ⟨o0, o1, -⟩ := idx_facts t
    show win0_6.index t (1 : Fin 2) * 128 + 1 * (j 1).val = (j 1).val
    omega
  unfold G
  generalize (V m c main_v33 : S128x128.Idx → EReal) = A1
  generalize (V m c main_v34 : S128x128.Idx → EReal) = A2
  generalize (V m c main_v35 : S1x128.Idx → EReal) = R1
  generalize (V m c main_v36 : S1x128.Idx → EReal) = R2
  generalize (V m c main_v32 : S100000x128.Idx → EReal) = X32 at h0 ⊢
  generalize (V m c main_arg0 : S100000x128.Idx → EReal) = X0 at h1 ⊢
  generalize iblk m c 0 t = b0 at h0 ⊢
  generalize iblk m c 1 t = b1 at h1 ⊢
  exact ((cut_blk6 _ t j).trans (update_of_blocks X32 X0 A1 R1 A2 R2 b0 b1 j _ hc h0 h1)).trans (read_blk6 _ t j).symm

/-- An index is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v37).slice (win0_6.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨o0, o1, -⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE RESULT ARRAY after the run is G. -/
theorem final (c : Dev nD) : (dats m 0 c).arrAt 6 cfg0.N = G m c :=
  (dats m 0 c).arrAt_eq_of_cover 6 (G m c) (fun t _ => flushed_eq m c t) cover

/-- The kernel's run, its result array named as G and the arguments unchanged. -/
theorem run : θ_run defs (onTc (τ := τ) (main (F := Ideal))) ⟨m, fun _ => 0, ρ⟩ fun r => ∀ c : Dev nD,
      r.2.mem ((c : Thread nD τ).loc main_v37) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.NodeValue

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.EdgeSums.lean ====
/-
  The one algebraic law of this certificate, on the extended reals.
  Summing, over the edges e that land at a node, the message g(e) + (a(e)·w + b) gives the same as summing the g(e) and
  adding (Σ a(e))·w + (Σ 1)·b, PROVIDED the a(e), w and b are real numbers: pulling the factor w out of a sum, and
  counting b once per edge as (number of edges)·b, are laws of the reals, not of ±∞. The g(e) may be any extended reals:
  only commutativity and associativity of + touch them.
-/
import Idealize.ShloMosaic.Lib.ValueIdx

noncomputable section

namespace Cert.EdgeSums

open scoped BigOperators
open Idealize.ShloMosaic Idealize.ShloMosaic.ValueIdx

/-- The edges that land at node n: those whose entry of the [E,1] column of destination indices, read signed, is n. -/
def hits {E w : Nat} (dst : IVec ⟨2, ![E, 1]⟩ w) (n : Nat) : Finset (Fin E) :=
  Finset.univ.filter (fun e : Fin E => (dst (ix2 e (0 : Fin 1))).toInt = (n : Int))

/-- The inclusion of the reals carries a finite sum to the sum. -/
theorem coe_sum {ι : Type} (A : Finset ι) (f : ι → ℝ) : ((∑ e ∈ A, f e : ℝ) : EReal) = ∑ e ∈ A, (f e : EReal) := by
  classical
  refine Finset.induction_on A (by simp) ?_
  intro e B he ih
  rw [Finset.sum_insert he, Finset.sum_insert he, EReal.coe_add, ih]

/-- A real factor comes out of a sum of reals. -/
theorem sum_mul_real {ι : Type} (A : Finset ι) (a : ι → EReal) (w : EReal) (ha : ∀ e, ∃ r : ℝ, a e = (r : EReal))
    (hw : ∃ r : ℝ, w = (r : EReal)) : ∑ e ∈ A, a e * w = (∑ e ∈ A, a e) * w := by
  choose r hr using ha
  obtain ⟨q, rfl⟩ := hw
  have e1 : ∀ e, a e * (q : EReal) = ((r e * q : ℝ) : EReal) := fun e => by rw [hr e, EReal.coe_mul]
  have e2 : (∑ e ∈ A, a e) = ((∑ e ∈ A, r e : ℝ) : EReal) := by
    rw [coe_sum]; exact Finset.sum_congr rfl fun e _ => hr e
  rw [Finset.sum_congr rfl fun e _ => e1 e, ← coe_sum, e2, ← EReal.coe_mul, Finset.sum_mul]

/-- A real constant summed once per edge is (the sum of 1 per edge) times the constant. -/
theorem sum_const_real {ι : Type} (A : Finset ι) (b : EReal) (hb : ∃ r : ℝ, b = (r : EReal)) :
    ∑ _e ∈ A, b = (∑ _e ∈ A, (1 : EReal)) * b := by
  obtain ⟨q, rfl⟩ := hb
  have e1 : (∑ _e ∈ A, (1 : EReal)) = ((∑ _e ∈ A, (1 : ℝ) : ℝ) : EReal) := by
    rw [coe_sum]; exact Finset.sum_congr rfl fun _ _ => EReal.coe_one.symm
  rw [e1, ← EReal.coe_mul, ← coe_sum, Finset.sum_mul]
  exact congrArg _ (Finset.sum_congr rfl fun _ _ => (one_mul q).symm)

/-- The law: the messages' sum, split into the gathered part and the rank-one correction. -/
theorem split {ι : Type} (A : Finset ι) (g a : ι → EReal) (w b : EReal) (ha : ∀ e, ∃ r : ℝ, a e = (r : EReal))
    (hw : ∃ r : ℝ, w = (r : EReal)) (hb : ∃ r : ℝ, b = (r : EReal)) :
    ∑ e ∈ A, (g e + (a e * w + b)) = ∑ e ∈ A, g e + ((∑ e ∈ A, a e) * w + (∑ _e ∈ A, (1 : EReal)) * b) := by
  rw [Finset.sum_add_distrib, Finset.sum_add_distrib, sum_mul_real A a w ha hw, sum_const_real A b hb]

end Cert.EdgeSums

end
-- ==== Proof.KernelHost.lean ====
/-
  What the host operations before the one region leave in the arrays the region reads, at the extended reals.

  From the node features x [100000, 128], the edge list [2, 1600000] (row 0 the source rows, row 1 the destination rows),
  the edge weights a [1600000], two feature vectors w, b [128], two weight matrices and two bias vectors, the host
  computes
    s = scatter-add over the edges, into zeros, of the gathered rows x[src(e)]                        [100000, 128]
      + (scatter-add of the weights a(e), spread along rows) · (w spread down columns)
      + (scatter-add of one per edge, spread along rows) · (b spread down columns),
  the two weight matrices transposed, and the two bias vectors as single rows.

  Read at an index: s(n, k) = Σ_{e lands at n} g(e, k) + ((Σ_{e lands at n} a(e))·w(k) + (Σ_{e lands at n} 1)·b(k)), every sum
  started from 0, where "e lands at n" is: the destination index of e, read signed, is n (`Cert.EdgeSums.hits`), and
  g is the gathered array, which stays closed here (`gathered`): both programs compute it by the same operations.
  The two scatters are read by LibScatterRows; the broadcasts and reshapes by naming the operand index.
-/
import proofs.«156908_j53077205844582_2_alg».proof.Proof.Gen.KernelIdeal.Frame
import proofs.«156908_j53077205844582_2_alg».proof.Proof.LibScatterRows
import proofs.«156908_j53077205844582_2_alg».proof.Proof.EdgeSums
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostValue

open scoped BigOperators
open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The launched arrays at their function types -/

/-- The node features x, [100000, 128]. -/
abbrev arg0 (c : Dev nD) : S100000x128.Idx → EReal := m ((c : Thread nD τ).loc main_arg0)
/-- The edge list, [2, 1600000]: row 0 the source rows, row 1 the destination rows. -/
abbrev arg1 (c : Dev nD) : S2x1600000.Idx → BitVec 32 := m ((c : Thread nD τ).loc main_arg1)
/-- The edge weights, [1600000]. -/
abbrev arg2 (c : Dev nD) : S1600000.Idx → EReal := m ((c : Thread nD τ).loc main_arg2)
/-- The edge-weight feature vector, [128]. -/
abbrev arg3 (c : Dev nD) : S128.Idx → EReal := m ((c : Thread nD τ).loc main_arg3)
/-- The per-edge bias vector, [128]. -/
abbrev arg4 (c : Dev nD) : S128.Idx → EReal := m ((c : Thread nD τ).loc main_arg4)
/-- The first weight matrix as the region finds it: the launched one, transposed. -/
theorem v33_eq (c : Dev nD) : (V m c main_v33 : S128x128.Idx → EReal)
    = transpose S128x128 [1, 0] (m ((c : Thread nD τ).loc main_arg5) : S128x128.Idx → EReal) Facts₀.transposes_S128x128_S128x128_1_0 := by
  dsimp only [Gen.V, Gen.hostOps0]; after_results

/-- The second weight matrix as the region finds it: the launched one, transposed. -/
theorem v34_eq (c : Dev nD) : (V m c main_v34 : S128x128.Idx → EReal)
    = transpose S128x128 [1, 0] (m ((c : Thread nD τ).loc main_arg7) : S128x128.Idx → EReal) Facts₀.transposes_S128x128_S128x128_1_0 := by
  dsimp only [Gen.V, Gen.hostOps0]; after_results

/-- A vector of 128 entries viewed as one row: entry (0, k) is entry k. -/
theorem row_apply (a : S128.Idx → EReal) (k : Fin 128) :
    shapeCast S1x128 a Facts₀.shapeCasts_S128_S1x128 (ix2 (0 : Fin 1) k) = a (ix1 k) := by
  refine shapeCast_apply a Facts₀.shapeCasts_S128_S1x128 (ix2 (0 : Fin 1) k) (ix1 k) ?_
  rw [Shape.rowMajor_val_one, Shape.rowMajor_val_two]
  show k.val = (0 : Nat) * 128 + k.val
  omega

/-- The first bias as the region finds it: the launched vector as one row. -/
theorem v35_eq (c : Dev nD) : (V m c main_v35 : S1x128.Idx → EReal)
    = shapeCast S1x128 (m ((c : Thread nD τ).loc main_arg6) : S128.Idx → EReal) Facts₀.shapeCasts_S128_S1x128 := by
  dsimp only [Gen.V, Gen.hostOps0]; after_results; rfl

/-- Its entry (0, k) is the launched vector's entry k. -/
theorem v35_apply (c : Dev nD) (k : Fin 128) : (V m c main_v35 : S1x128.Idx → EReal) (ix2 (0 : Fin 1) k)
    = (m ((c : Thread nD τ).loc main_arg6) : S128.Idx → EReal) (ix1 k) := by
  rw [v35_eq]; exact row_apply _ k

/-- The second bias as the region finds it: the launched vector as one row. -/
theorem v36_eq (c : Dev nD) : (V m c main_v36 : S1x128.Idx → EReal)
    = shapeCast S1x128 (m ((c : Thread nD τ).loc main_arg8) : S128.Idx → EReal) Facts₀.shapeCasts_S128_S1x128 := by
  dsimp only [Gen.V, Gen.hostOps0]; after_results; rfl

/-- Its entry (0, k) is the launched vector's entry k. -/
theorem v36_apply (c : Dev nD) (k : Fin 128) : (V m c main_v36 : S1x128.Idx → EReal) (ix2 (0 : Fin 1) k)
    = (m ((c : Thread nD τ).loc main_arg8) : S128.Idx → EReal) (ix1 k) := by
  rw [v36_eq]; exact row_apply _ k

/-- The column of destination rows: row 1 of the edge list, one index per edge. -/
def dstCol (a1 : IVec S2x1600000 32) : IVec S1600000x1 32 :=
  broadcastInDim S1600000x1 ![0] Facts₀.bcast_S1600000_S1600000x1_0
    (shapeCast S1600000 (extractStridedSlice S1x1600000 ![1, 0] a1 Facts₀.slices_S2x1600000_S1x1600000_1_0)
      Facts₀.shapeCasts_S1x1600000_S1600000)

/-- Row 0 of the edge list: one source row per edge. -/
def srcVec (a1 : IVec S2x1600000 32) : IVec S1600000 32 :=
  shapeCast S1600000 (extractStridedSlice S1x1600000 ![0, 0] a1 Facts₀.slices_S2x1600000_S1x1600000_0_0)
    Facts₀.shapeCasts_S1x1600000_S1600000

/-- The rows of the node array the edges read, one per edge (a negative source row counted from the end); kept closed. -/
def gathered (a0 : FVec Ideal S100000x128 .f32) (a1 : IVec S2x1600000 32) : FVec Ideal S1600000x128 .f32 :=
  Host.gather gather_S100000x128_S1600000x1_S1600000x128_1_0_n_n_0_1_1128 a0
    (broadcastInDim S1600000x1 ![0] Facts₀.bcast_S1600000_S1600000x1_0
      (select (cmpi .slt (srcVec a1) (broadcastInDim S1600000 ![] Facts₀.bcast_S_S1600000 (constantI S_ 32 0#32)))
        (addi (srcVec a1) (broadcastInDim S1600000 ![] Facts₀.bcast_S_S1600000 (constantI S_ 32 100000#32)))
        (srcVec a1)))

/-- The all-zero node array reads 0 everywhere. -/
theorem zeros2_apply (i : S100000x128.Idx) :
    broadcastInDim S100000x128 ![] Facts₀.bcast_S_S100000x128 (constant (F := Ideal) S_ .f32 0x00000000#32) i = 0 := by
  refine (broadcastInDim_apply ![] Facts₀.bcast_S_S100000x128 (constant (F := Ideal) S_ .f32 0x00000000#32) i ix0
    (fun a => a.elim0)).trans ?_
  rw [constant_apply, Ideal.ofBits_zero_f32]

/-- The all-zero node vector reads 0 everywhere. -/
theorem zeros1_apply (i : S100000.Idx) :
    broadcastInDim S100000 ![] Facts₀.bcast_S_S100000 (constant (F := Ideal) S_ .f32 0x00000000#32) i = 0 := by
  refine (broadcastInDim_apply ![] Facts₀.bcast_S_S100000 (constant (F := Ideal) S_ .f32 0x00000000#32) i ix0
    (fun a => a.elim0)).trans ?_
  rw [constant_apply, Ideal.ofBits_zero_f32]

/-- The all-ones edge vector reads the word 0x3F800000 everywhere. -/
theorem ones_apply (i : S1600000.Idx) :
    broadcastInDim S1600000 ![] Facts₀.bcast_S_S1600000 (constant (F := Ideal) S_ .f32 0x3F800000#32) i
      = Ideal.ofBits .f32 0x3F800000#32 := by
  refine (broadcastInDim_apply ![] Facts₀.bcast_S_S1600000 (constant (F := Ideal) S_ .f32 0x3F800000#32) i ix0
    (fun a => a.elim0)).trans ?_
  rw [constant_apply]

/-- At the extended reals the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The row scatter into an all-zero array, at row n and column k: the sum, over the edges that land at n, of their
    column-k entries. -/
theorem scatRows_apply (x : FVec Ideal S100000x128 .f32) (hx : ∀ i, x i = 0) (idx : IVec S1600000x1 32)
    (upd : FVec Ideal S1600000x128 .f32) (n : Fin 100000) (k : Fin 128) :
    Host.scatterAdd (F := Ideal) scatter_S100000x128_S1600000x1_S1600000x128_1_0_0_1 x idx upd (ix2 n k)
      = 0 + ∑ e ∈ Cert.EdgeSums.hits idx n.val, upd (ix2 e k) := by
  rw [scatterAdd_ideal]
  refine (Cert.LibScatterRows.scatterRows_apply 100000 1600000 128
    Facts₀.scatter_S100000x128_S1600000x1_S1600000x128_1_0_0_1_wf x idx upd n k).trans ?_
  unfold Cert.EdgeSums.hits
  rw [hx]

/-- The vector scatter into an all-zero vector, at position n: the sum, over the edges that land at n, of their entries. -/
theorem scatVec_apply (x : FVec Ideal S100000 .f32) (hx : ∀ i, x i = 0) (idx : IVec S1600000x1 32)
    (upd : FVec Ideal S1600000 .f32) (n : Fin 100000) :
    Host.scatterAdd (F := Ideal) scatter_S100000_S1600000x1_S1600000_n_0_0_1 x idx upd (ix1 n)
      = 0 + ∑ e ∈ Cert.EdgeSums.hits idx n.val, upd (ix1 e) := by
  rw [scatterAdd_ideal]
  refine (Cert.LibScatterRows.scatterVec_apply 100000 1600000
    Facts₀.scatter_S100000_S1600000x1_S1600000_n_0_0_1_wf x idx upd n).trans ?_
  unfold Cert.EdgeSums.hits
  rw [hx]
/-- A node vector spread along the rows: entry (n, k) is entry n. -/
theorem colBcast_apply (v : FVec Ideal S100000 .f32) (n : Fin 100000) (k : Fin 128) :
    broadcastInDim S100000x128 ![0, 1] Facts₀.bcast_S100000x1_S100000x128_0_1
      (broadcastInDim S100000x1 ![0] Facts₀.bcast_S100000_S100000x1_0 v) (ix2 n k) = v (ix1 n) := by
  refine (broadcastInDim_apply ![0, 1] Facts₀.bcast_S100000x1_S100000x128_0_1 _ (ix2 n k) (ix2 n (0 : Fin 1)) ?_).trans ?_
  · intro a
    match a with
    | ⟨0, _⟩ => show n.val = if (100000 : Nat) = 1 then 0 else n.val; rw [if_neg (by decide)]
    | ⟨1, _⟩ => show (0 : Nat) = if (1 : Nat) = 1 then 0 else _; rw [if_pos rfl]
  · refine broadcastInDim_apply ![0] Facts₀.bcast_S100000_S100000x1_0 v (ix2 n (0 : Fin 1)) (ix1 n) ?_
    intro a
    match a with
    | ⟨0, _⟩ => show n.val = if (100000 : Nat) = 1 then 0 else n.val; rw [if_neg (by decide)]

/-- A feature vector spread down the columns: entry (n, k) is entry k. -/
theorem rowBcast_apply (a : FVec Ideal S128 .f32) (n : Fin 100000) (k : Fin 128) :
    broadcastInDim S100000x128 ![0, 1] Facts₀.bcast_S1x128_S100000x128_0_1
      (broadcastInDim S1x128 ![1] Facts₀.bcast_S128_S1x128_1 a) (ix2 n k) = a (ix1 k) := by
  refine (broadcastInDim_apply ![0, 1] Facts₀.bcast_S1x128_S100000x128_0_1 _ (ix2 n k) (ix2 (0 : Fin 1) k) ?_).trans ?_
  · intro b
    match b with
    | ⟨0, _⟩ => show (0 : Nat) = if (1 : Nat) = 1 then 0 else _; rw [if_pos rfl]
    | ⟨1, _⟩ => show k.val = if (128 : Nat) = 1 then 0 else k.val; rw [if_neg (by decide)]
  · refine broadcastInDim_apply ![1] Facts₀.bcast_S128_S1x128_1 a (ix2 (0 : Fin 1) k) (ix1 k) ?_
    intro b
    match b with
    | ⟨0, _⟩ => show k.val = if (128 : Nat) = 1 then 0 else k.val; rw [if_neg (by decide)]

/-- The aggregate plus the rank-one correction, as arrays: A + (B spread along rows · a3 spread down columns
    + C spread along rows · a4 spread down columns). -/
def pre (A : FVec Ideal S100000x128 .f32) (B C : FVec Ideal S100000 .f32) (a3 a4 : FVec Ideal S128 .f32) :
    FVec Ideal S100000x128 .f32 :=
  addf (F := Ideal) (φ := .f32) A
    (addf
      (mulf
        (broadcastInDim S100000x128 ![0, 1] Facts₀.bcast_S100000x1_S100000x128_0_1
          (broadcastInDim S100000x1 ![0] Facts₀.bcast_S100000_S100000x1_0 B))
        (broadcastInDim S100000x128 ![0, 1] Facts₀.bcast_S1x128_S100000x128_0_1
          (broadcastInDim S1x128 ![1] Facts₀.bcast_S128_S1x128_1 a3)))
      (mulf
        (broadcastInDim S100000x128 ![0, 1] Facts₀.bcast_S100000x1_S100000x128_0_1
          (broadcastInDim S100000x1 ![0] Facts₀.bcast_S100000_S100000x1_0 C))
        (broadcastInDim S100000x128 ![0, 1] Facts₀.bcast_S1x128_S100000x128_0_1
          (broadcastInDim S1x128 ![1] Facts₀.bcast_S128_S1x128_1 a4))))

/-- Entry (n, k) of it: A(n, k) + (B(n)·a3(k) + C(n)·a4(k)). -/
theorem pre_apply (A : FVec Ideal S100000x128 .f32) (B C : FVec Ideal S100000 .f32) (a3 a4 : FVec Ideal S128 .f32)
    (n : Fin 100000) (k : Fin 128) :
    pre A B C a3 a4 (ix2 n k) = A (ix2 n k) + (B (ix1 n) * a3 (ix1 k) + C (ix1 n) * a4 (ix1 k)) := by
  unfold pre
  rw [addf_apply, addf_apply, mulf_apply, mulf_apply, colBcast_apply, colBcast_apply, rowBcast_apply, rowBcast_apply]

set_option maxHeartbeats 1000000 in
/-- The aggregated array as the region finds it: the host operations' own term over the launched arrays. -/
theorem v32_raw (c : Dev nD) : (V m c main_v32 : S100000x128.Idx → EReal) =
    addf (F := Ideal) (φ := .f32)
      (Host.scatterAdd (F := Ideal) scatter_S100000x128_S1600000x1_S1600000x128_1_0_0_1
        (broadcastInDim S100000x128 ![] Facts₀.bcast_S_S100000x128 (constant (F := Ideal) S_ .f32 0x00000000#32))
        (broadcastInDim S1600000x1 ![0] Facts₀.bcast_S1600000_S1600000x1_0
          (shapeCast S1600000 (extractStridedSlice S1x1600000 ![1, 0] (m ((c : Thread nD τ).loc main_arg1) : S2x1600000.Idx → BitVec 32) Facts₀.slices_S2x1600000_S1x1600000_1_0)
            Facts₀.shapeCasts_S1x1600000_S1600000))
        (Host.gather gather_S100000x128_S1600000x1_S1600000x128_1_0_n_n_0_1_1128 (m ((c : Thread nD τ).loc main_arg0) : S100000x128.Idx → EReal)
          (broadcastInDim S1600000x1 ![0] Facts₀.bcast_S1600000_S1600000x1_0
            (select
              (cmpi .slt
                (shapeCast S1600000 (extractStridedSlice S1x1600000 ![0, 0] (m ((c : Thread nD τ).loc main_arg1) : S2x1600000.Idx → BitVec 32) Facts₀.slices_S2x1600000_S1x1600000_0_0) Facts₀.shapeCasts_S1x1600000_S1600000)
                (broadcastInDim S1600000 ![] Facts₀.bcast_S_S1600000 (constantI S_ 32 0#32)))
              (addi
                (shapeCast S1600000 (extractStridedSlice S1x1600000 ![0, 0] (m ((c : Thread nD τ).loc main_arg1) : S2x1600000.Idx → BitVec 32) Facts₀.slices_S2x1600000_S1x1600000_0_0) Facts₀.shapeCasts_S1x1600000_S1600000)
                (broadcastInDim S1600000 ![] Facts₀.bcast_S_S1600000 (constantI S_ 32 100000#32)))
              (shapeCast S1600000 (extractStridedSlice S1x1600000 ![0, 0] (m ((c : Thread nD τ).loc main_arg1) : S2x1600000.Idx → BitVec 32) Facts₀.slices_S2x1600000_S1x1600000_0_0) Facts₀.shapeCasts_S1x1600000_S1600000)))))
      (addf
        (mulf
          (broadcastInDim S100000x128 ![0, 1] Facts₀.bcast_S100000x1_S100000x128_0_1
            (broadcastInDim S100000x1 ![0] Facts₀.bcast_S100000_S100000x1_0
              (Host.scatterAdd (F := Ideal) scatter_S100000_S1600000x1_S1600000_n_0_0_1
                (broadcastInDim S100000 ![] Facts₀.bcast_S_S100000 (constant (F := Ideal) S_ .f32 0x00000000#32))
                (broadcastInDim S1600000x1 ![0] Facts₀.bcast_S1600000_S1600000x1_0
                  (shapeCast S1600000 (extractStridedSlice S1x1600000 ![1, 0] (m ((c : Thread nD τ).loc main_arg1) : S2x1600000.Idx → BitVec 32) Facts₀.slices_S2x1600000_S1x1600000_1_0)
                    Facts₀.shapeCasts_S1x1600000_S1600000))
                (m ((c : Thread nD τ).loc main_arg2) : S1600000.Idx → EReal))))
          (broadcastInDim S100000x128 ![0, 1] Facts₀.bcast_S1x128_S100000x128_0_1
            (broadcastInDim S1x128 ![1] Facts₀.bcast_S128_S1x128_1 (m ((c : Thread nD τ).loc main_arg3) : S128.Idx → EReal))))
        (mulf
          (broadcastInDim S100000x128 ![0, 1] Facts₀.bcast_S100000x1_S100000x128_0_1
            (broadcastInDim S100000x1 ![0] Facts₀.bcast_S100000_S100000x1_0
              (Host.scatterAdd (F := Ideal) scatter_S100000_S1600000x1_S1600000_n_0_0_1
                (broadcastInDim S100000 ![] Facts₀.bcast_S_S100000 (constant (F := Ideal) S_ .f32 0x00000000#32))
                (broadcastInDim S1600000x1 ![0] Facts₀.bcast_S1600000_S1600000x1_0
                  (shapeCast S1600000 (extractStridedSlice S1x1600000 ![1, 0] (m ((c : Thread nD τ).loc main_arg1) : S2x1600000.Idx → BitVec 32) Facts₀.slices_S2x1600000_S1x1600000_1_0)
                    Facts₀.shapeCasts_S1x1600000_S1600000))
                (broadcastInDim S1600000 ![] Facts₀.bcast_S_S1600000 (constant (F := Ideal) S_ .f32 0x3F800000#32)))))
          (broadcastInDim S100000x128 ![0, 1] Facts₀.bcast_S1x128_S100000x128_0_1
            (broadcastInDim S1x128 ![1] Facts₀.bcast_S128_S1x128_1 (m ((c : Thread nD τ).loc main_arg4) : S128.Idx → EReal))))) := by
  dsimp only [Gen.V, Gen.hostOps0]
  after_results_simp
  rfl

/-- The aggregated array as the region finds it, in the vocabulary above: the row scatter of the gathered rows plus
    the rank-one correction built from the two vector scatters (of the edge weights, and of one per edge). -/
theorem v32_eq (c : Dev nD) : (V m c main_v32 : S100000x128.Idx → EReal) =
    pre
      (Host.scatterAdd (F := Ideal) scatter_S100000x128_S1600000x1_S1600000x128_1_0_0_1
        (broadcastInDim S100000x128 ![] Facts₀.bcast_S_S100000x128 (constant (F := Ideal) S_ .f32 0x00000000#32))
        (dstCol (arg1 m c)) (gathered (arg0 m c) (arg1 m c)))
      (Host.scatterAdd (F := Ideal) scatter_S100000_S1600000x1_S1600000_n_0_0_1
        (broadcastInDim S100000 ![] Facts₀.bcast_S_S100000 (constant (F := Ideal) S_ .f32 0x00000000#32))
        (dstCol (arg1 m c)) (arg2 m c))
      (Host.scatterAdd (F := Ideal) scatter_S100000_S1600000x1_S1600000_n_0_0_1
        (broadcastInDim S100000 ![] Facts₀.bcast_S_S100000 (constant (F := Ideal) S_ .f32 0x00000000#32))
        (dstCol (arg1 m c))
        (broadcastInDim S1600000 ![] Facts₀.bcast_S_S1600000 (constant (F := Ideal) S_ .f32 0x3F800000#32)))
      (arg3 m c) (arg4 m c) :=
  v32_raw m c

/-- Entry (n, k) of the aggregated array: the sum over the edges that land at n of the gathered rows' column k, plus
    (the sum of those edges' weights)·a3(k) plus (one per such edge, summed)·a4(k); each sum started from 0. -/
theorem v32_apply (c : Dev nD) (n : Fin 100000) (k : Fin 128) :
    (V m c main_v32 : S100000x128.Idx → EReal) (ix2 n k)
      = (0 + ∑ e ∈ Cert.EdgeSums.hits (dstCol (arg1 m c)) n.val, gathered (arg0 m c) (arg1 m c) (ix2 e k))
        + ((0 + ∑ e ∈ Cert.EdgeSums.hits (dstCol (arg1 m c)) n.val, arg2 m c (ix1 e)) * arg3 m c (ix1 k)
           + (0 + ∑ _e ∈ Cert.EdgeSums.hits (dstCol (arg1 m c)) n.val, Ideal.ofBits .f32 0x3F800000#32)
              * arg4 m c (ix1 k)) := by
  rw [v32_eq, pre_apply, scatRows_apply _ zeros2_apply, scatVec_apply _ zeros1_apply, scatVec_apply _ zeros1_apply,
    Finset.sum_congr rfl (fun e _ => ones_apply (ix1 e))]

end Cert.KernelIdeal.HostValue
-- ==== Proof.RefValue.lean ====
/-
  The reference program's result, read as mathematics.

    * `ref_update`: the result array is the node update (a dense stage with its cut-off at 0, then a second
      product-plus-bias) of the pre-activation array, with the transposed weight arrays and the bias vectors as one-row
      matrices.
    * `ref_row1`, `ref_row2`: a bias as a one-row matrix reads the bias vector.
    * `ref_zero`, `ref_msg`, `ref_scatter`: the scatter-add's operand is the zero array; its update at edge e, column c is
      the gathered entry plus (weight of e)·(scale of c) + (offset of c); its result at node n, column c is the operand's
      entry plus the sum of the updates over the edges that land at n.
    * `ref_preact`: the pre-activation array at (n, c) is 0 plus that sum of messages, plus 1 times the node's own entry.
-/
import proofs.«156908_j53077205844582_2_alg».proof.Proof.Gen.ReferenceIdeal.Read
import proofs.«156908_j53077205844582_2_alg».proof.Proof.NodeUpdate
import proofs.«156908_j53077205844582_2_alg».proof.Proof.EdgeSums
import proofs.«156908_j53077205844582_2_alg».proof.Proof.LibScatterRows

noncomputable section

namespace Cert.ReferenceIdeal.RefValue

open Cert.ReferenceIdeal Cert.ReferenceIdeal.Gen Cert.ReferenceIdeal.Read Idealize.ShloMosaic Idealize.ShloMosaic.ValueIdx
open Idealize.SL.Sem

/-- The reference's result is the node update of its pre-activation array: two general products, each with its bias
    row broadcast over the rows, the first followed by the cut-off at 0. -/
theorem ref_update (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v36 (F := Ideal) x0 x1 x2 x3 x4 x5 x6 x7 x8
      = Cert.NodeUpdate.update 100000 128 (val_main_v25 (F := Ideal) x0 x1 x2 x3 x4) (val_main_v26 (F := Ideal) x5)
          (val_main_v28 (F := Ideal) x6) (val_main_v32 (F := Ideal) x7) (val_main_v34 (F := Ideal) x8) := by
  unfold val_main_v36 val_main_v35 val_main_v33 val_main_v31 val_main_v30 val_main_v29 val_main_v27 val_main_call0_v0
    val_main_call0_cst
  exact Cert.NodeUpdate.update_of_dotGeneral 100000 128 _ _ _ _ _ bcast_S1x128_S100000x128_0_1 bcast_S_S100000x128

/-- The first bias as a one-row matrix reads the bias vector. -/
theorem ref_row1 (x6 : (⟨S128, .f32⟩ : BufTy).Contents (Elt Ideal)) (c : Fin 128) :
    val_main_v28 (F := Ideal) x6 (ix2 (0 : Fin 1) c) = x6 (ix1 c) := by
  rw [val_main_v28_apply]
  exact congrArg x6 (funext fun a => match a with | ⟨0, _⟩ => rfl)

/-- The second bias as a one-row matrix reads the bias vector. -/
theorem ref_row2 (x8 : (⟨S128, .f32⟩ : BufTy).Contents (Elt Ideal)) (c : Fin 128) :
    val_main_v34 (F := Ideal) x8 (ix2 (0 : Fin 1) c) = x8 (ix1 c) := by
  rw [val_main_v34_apply]
  exact congrArg x8 (funext fun a => match a with | ⟨0, _⟩ => rfl)

/-- The scatter's operand is the zero array. -/
theorem ref_zero (n : Fin 100000) (c : Fin 128) : val_main_v20 (F := Ideal) (ix2 n c) = 0 := by
  rw [val_main_v20_apply, val_main_cst_apply]; exact Ideal.ofBits_zero_f32

/-- The message of edge e in column c: the gathered entry plus the edge's weight times the column's scale plus the
    column's offset. -/
theorem ref_msg (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 x4 : (⟨S128, .f32⟩ : BufTy).Contents (Elt Ideal)) (e : Fin 1600000) (c : Fin 128) :
    val_main_v19 (F := Ideal) x0 x1 x2 x3 x4 (ix2 e c)
      = val_main_v18 (F := Ideal) x0 x1 (ix2 e c) + (x2 (ix1 e) * x3 (ix1 c) + x4 (ix1 c)) := by
  have e2 : idx_main_v4 (idx_main_v6 (ix2 e c)) = ix1 e := funext fun a => match a with | ⟨0, _⟩ => rfl
  have e3 : idx_main_v5 (idx_main_v7 (ix2 e c)) = ix1 c := funext fun a => match a with | ⟨0, _⟩ => rfl
  have e4 : idx_main_v9 (idx_main_v10 (ix2 e c)) = ix1 c := funext fun a => match a with | ⟨0, _⟩ => rfl
  rw [val_main_v19_apply, val_main_v11_apply, val_main_v8_apply, val_main_v6_apply, val_main_v4_apply,
    val_main_v7_apply, val_main_v5_apply, val_main_v10_apply, val_main_v9_apply, e2, e3, e4]
  rfl

/-- The scatter-add at node n, column c: the operand's entry plus the sum of the updates' entries in column c over the
    edges that land at n. -/
theorem ref_scatter (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 x4 : (⟨S128, .f32⟩ : BufTy).Contents (Elt Ideal)) (n : Fin 100000) (c : Fin 128) :
    val_main_v22 (F := Ideal) x0 x1 x2 x3 x4 (ix2 n c)
      = val_main_v20 (F := Ideal) (ix2 n c)
        + ∑ e ∈ Cert.EdgeSums.hits (val_main_v21 (F := Ideal) x1) n.val, val_main_v19 (F := Ideal) x0 x1 x2 x3 x4 (ix2 e c) := by
  have h1 : val_main_v22 (F := Ideal) x0 x1 x2 x3 x4 = Ideal.hostScatterAdd scatter_S100000x128_S1600000x1_S1600000x128_1_0_0_1 (val_main_v20 (F := Ideal)) (val_main_v21 (F := Ideal) x1) (val_main_v19 (F :=Ideal) x0 x1 x2 x3 x4) := rfl
  have hd : scatter_S100000x128_S1600000x1_S1600000x128_1_0_0_1
      = (⟨[1], [0], [0], 1, scatter_S100000x128_S1600000x1_S1600000x128_1_0_0_1_wf⟩ : ScatterDims S100000x128 S1600000x1 S1600000x128) := rfl
  rw [hd] at h1
  exact (congrFun h1 (ix2 n c)).trans (Cert.LibScatterRows.scatterRows_apply 100000 1600000 128 scatter_S100000x128_S1600000x1_S1600000x128_1_0_0_1_wf (val_main_v20 (F := Ideal)) (val_main_v21 (F := Ideal) x1) (val_main_v19 (F :=Ideal) x0 x1 x2 x3 x4) n c)

/-- The pre-activation array at node n, column c: the sum, over the edges that land at n, of the messages — started
    from 0 — plus 1 times the node's own entry. -/
theorem ref_preact (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 x4 : (⟨S128, .f32⟩ : BufTy).Contents (Elt Ideal)) (n : Fin 100000) (c : Fin 128) :
    val_main_v25 (F := Ideal) x0 x1 x2 x3 x4 (ix2 n c)
      = (0 + ∑ e ∈ Cert.EdgeSums.hits (val_main_v21 (F := Ideal) x1) n.val,
              (val_main_v18 (F := Ideal) x0 x1 (ix2 e c) + (x2 (ix1 e) * x3 (ix1 c) + x4 (ix1 c))))
          + Ideal.ofBits .f32 0x3F800000#32 * x0 (ix2 n c) := by
  rw [val_main_v25_apply, val_main_v24_apply, val_main_v23_apply, val_main_cst_1_apply, ref_scatter, ref_zero,
    Finset.sum_congr rfl fun e _ => ref_msg x0 x1 x2 x3 x4 e c, Ideal.addf_def, Ideal.mulf_def, Ideal.ofBits_def]

end Cert.ReferenceIdeal.RefValue

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.Bridge.lean ====
/-
  The two results are one function of the arguments.
  The kernel's result is the node update of S + 1·x with S(n,k) = Σ_{e→n} x[src e, k] + ((Σ_{e→n} a(e))·w(k) + (Σ_{e→n} 1)·b(k)),
  the rank-one correction added after the sums; the reference's is the node update of S' + 1·x with
  S'(n,k) = Σ_{e→n} (x[src e, k] + (a(e)·w(k) + b(k))), the per-edge message summed whole. With the edge weights a, the
  edge-encoder weight w and bias b real numbers (the precondition), S = S' (EdgeSums.lean); the gathered rows x[src e, ·]
  and the destination column are the same terms of the arguments in both programs and are never opened; the weights are
  the same transposes, and the bias rows — a reshape in one program, a broadcast in the other — the same rows.
-/
import proofs.«156908_j53077205844582_2_alg».proof.Proof.KernelFinal
import proofs.«156908_j53077205844582_2_alg».proof.Proof.KernelHost
import proofs.«156908_j53077205844582_2_alg».proof.Proof.RefValue
import proofs.«156908_j53077205844582_2_alg».proof.Proof.EdgeSums
import proofs.«156908_j53077205844582_2_alg».proof.Proof.LibSpellings

noncomputable section

namespace Cert.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The destination column is one term of the index argument in both programs. -/
theorem dst_eq (a1 : IVec S2x1600000 32) :
    Cert.KernelIdeal.HostValue.dstCol a1 = Cert.ReferenceIdeal.Read.val_main_v21 (F := Ideal) a1 := rfl

/-- The gathered rows are one term of x and the index argument in both programs. -/
theorem gathered_eq (a0 : FVec Ideal S100000x128 .f32) (a1 : IVec S2x1600000 32) :
    Cert.KernelIdeal.HostValue.gathered a0 a1 = Cert.ReferenceIdeal.Read.val_main_v18 (F := Ideal) a0 a1 := rfl

/-- The law of EdgeSums.lean with the zeros the two scatters start from written out. -/
theorem split0 {ι : Type} (A : Finset ι) (g a : ι → EReal) (w b : EReal) (ha : ∀ e, ∃ r : ℝ, a e = (r : EReal))
    (hw : ∃ r : ℝ, w = (r : EReal)) (hb : ∃ r : ℝ, b = (r : EReal)) :
    (0 + ∑ e ∈ A, g e) + ((0 + ∑ e ∈ A, a e) * w + (0 + ∑ _e ∈ A, (1 : EReal)) * b)
      = 0 + ∑ e ∈ A, (g e + (a e * w + b)) := by
  rw [zero_add, zero_add, zero_add, zero_add]
  exact (Cert.EdgeSums.split A g a w b ha hw hb).symm

/-- s + 1·x at an entry. -/
theorem preact_apply {s : Shape} (sc x : s.Idx → EReal) (i : s.Idx) :
    Cert.KernelIdeal.NodeValue.preact sc x i = sc i + Ideal.ofBits .f32 0x3F800000#32 * x i := rfl

/-- S + 1·x = S' + 1·x, entry by entry, when the edge weights and the edge encoder's weight and bias are real. -/
theorem preact_eq (c : Dev nD)
    (h2 : ∀ i, ∃ r : ℝ, (m ((c : Thread nD τ).loc main_arg2) : S1600000.Idx → EReal) i = (r : EReal))
    (h3 : ∀ i, ∃ r : ℝ, (m ((c : Thread nD τ).loc main_arg3) : S128.Idx → EReal) i = (r : EReal))
    (h4 : ∀ i, ∃ r : ℝ, (m ((c : Thread nD τ).loc main_arg4) : S128.Idx → EReal) i = (r : EReal)) :
    Cert.KernelIdeal.NodeValue.preact (V m c main_v32 : S100000x128.Idx → EReal) (V m c main_arg0 : S100000x128.Idx → EReal)
      = Cert.ReferenceIdeal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨n, k, rfl⟩ : ∃ (n : Fin 100000) (k : Fin 128), i = ix2 n k := ⟨i 0, i 1, eq_ix2 i⟩
  rw [preact_apply, Cert.KernelIdeal.HostValue.v32_apply m c n k, Cert.ReferenceIdeal.RefValue.ref_preact, V_main_arg0 m c,
    dst_eq, gathered_eq, Cert.LibSpellings.ofBits_one_f32]
  have key := split0 (Cert.EdgeSums.hits (Cert.ReferenceIdeal.Read.val_main_v21 (F := Ideal) (Cert.KernelIdeal.HostValue.arg1 m c)) n.val)
    (fun e => Cert.ReferenceIdeal.Read.val_main_v18 (F := Ideal) (Cert.KernelIdeal.HostValue.arg0 m c) (Cert.KernelIdeal.HostValue.arg1 m c) (ix2 e k))
    (fun e => Cert.KernelIdeal.HostValue.arg2 m c (ix1 e)) (Cert.KernelIdeal.HostValue.arg3 m c (ix1 k))
    (Cert.KernelIdeal.HostValue.arg4 m c (ix1 k)) (fun e => h2 (ix1 e)) (h3 (ix1 k)) (h4 (ix1 k))
  exact congrArg (fun z => z + 1 * Cert.KernelIdeal.HostValue.arg0 m c (ix2 n k)) key

/-- The kernel's result array is the reference's result term, of the same arguments. -/
theorem result_eq (c : Dev nD)
    (h2 : ∀ i, ∃ r : ℝ, (m ((c : Thread nD τ).loc main_arg2) : S1600000.Idx → EReal) i = (r : EReal))
    (h3 : ∀ i, ∃ r : ℝ, (m ((c : Thread nD τ).loc main_arg3) : S128.Idx → EReal) i = (r : EReal))
    (h4 : ∀ i, ∃ r : ℝ, (m ((c : Thread nD τ).loc main_arg4) : S128.Idx → EReal) i = (r : EReal)) :
    Cert.KernelIdeal.NodeValue.G m c
      = Cert.ReferenceIdeal.Read.val_main_v36 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  have hR1 : (V m c main_v35 : S1x128.Idx → EReal)
      = Cert.ReferenceIdeal.Read.val_main_v28 (F := Ideal) (m ((c : Thread nD τ).loc main_arg6)) := by
    funext i
    obtain ⟨z, k, rfl⟩ : ∃ (z : Fin 1) (k : Fin 128), i = ix2 z k := ⟨i 0, i 1, eq_ix2 i⟩
    obtain rfl : z = 0 := Subsingleton.elim _ _
    rw [Cert.KernelIdeal.HostValue.v35_apply m c k, Cert.ReferenceIdeal.RefValue.ref_row1]
  have hR2 : (V m c main_v36 : S1x128.Idx → EReal)
      = Cert.ReferenceIdeal.Read.val_main_v34 (F := Ideal) (m ((c : Thread nD τ).loc main_arg8)) := by
    funext i
    obtain ⟨z, k, rfl⟩ : ∃ (z : Fin 1) (k : Fin 128), i = ix2 z k := ⟨i 0, i 1, eq_ix2 i⟩
    obtain rfl : z = 0 := Subsingleton.elim _ _
    rw [Cert.KernelIdeal.HostValue.v36_apply m c k, Cert.ReferenceIdeal.RefValue.ref_row2]
  have hA1 : (V m c main_v33 : S128x128.Idx → EReal)
      = Cert.ReferenceIdeal.Read.val_main_v26 (F := Ideal) (m ((c : Thread nD τ).loc main_arg5)) :=
    Cert.KernelIdeal.HostValue.v33_eq m c
  have hA2 : (V m c main_v34 : S128x128.Idx → EReal)
      = Cert.ReferenceIdeal.Read.val_main_v32 (F := Ideal) (m ((c : Thread nD τ).loc main_arg7)) :=
    Cert.KernelIdeal.HostValue.v34_eq m c
  rw [Cert.ReferenceIdeal.RefValue.ref_update]
  unfold Cert.KernelIdeal.NodeValue.G
  rw [preact_eq m c h2 h3 h4, hA1, hA2, hR1, hR2]

end Cert.Bridge

end
-- ==== Proof.lean ====
/-
  The certificate of a message-passing layer's node update: the kernel computes, on the host, the per-node sums of the
  gathered source rows and — as a rank-one correction — of the edge weights and edge counts, and in one tiled region the
  two-layer update of (sums + correction + 1·x); the reference sums the whole per-edge message and applies the same
  update with general products. On the extended reals the two results are equal once the edge weights and the edge
  encoder's weight and bias are real numbers, which the precondition gives: the only law used beyond commutativity and
  associativity of + is pulling a real factor out of a finite sum of reals (Proof/EdgeSums.lean).
  The three frames are the generated ones (the reference's is its run with the result dropped); the idealization
  rewrote nothing, so there is nothing to preserve.
-/
import proofs.«156908_j53077205844582_2_alg».proof.Defs
import proofs.«156908_j53077205844582_2_alg».proof.Proof.Gen.Kernel
import proofs.«156908_j53077205844582_2_alg».proof.Proof.Gen.Kernel.Skeleton
import proofs.«156908_j53077205844582_2_alg».proof.Proof.Gen.Kernel.Launch
import proofs.«156908_j53077205844582_2_alg».proof.Proof.Gen.Kernel.Points
import proofs.«156908_j53077205844582_2_alg».proof.Proof.Gen.Kernel.Frame
import proofs.«156908_j53077205844582_2_alg».proof.Proof.Gen.KernelIdeal
import proofs.«156908_j53077205844582_2_alg».proof.Proof.Gen.KernelIdeal.Skeleton
import proofs.«156908_j53077205844582_2_alg».proof.Proof.Gen.KernelIdeal.Launch
import proofs.«156908_j53077205844582_2_alg».proof.Proof.Gen.KernelIdeal.Points
import proofs.«156908_j53077205844582_2_alg».proof.Proof.Gen.KernelIdeal.Frame
import proofs.«156908_j53077205844582_2_alg».proof.Proof.Gen.ReferenceIdeal
import proofs.«156908_j53077205844582_2_alg».proof.Proof.Gen.Pre_finite_inputs
import proofs.«156908_j53077205844582_2_alg».proof.Proof.Gen.KernelIdeal.Value
import proofs.«156908_j53077205844582_2_alg».proof.Proof.Gen.ReferenceIdeal.Run
import proofs.«156908_j53077205844582_2_alg».proof.Proof.Gen.ReferenceIdeal.Read
import proofs.«156908_j53077205844582_2_alg».proof.Proof.FiniteArgs
import proofs.«156908_j53077205844582_2_alg».proof.Proof.Bridge
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel's result array at G (Proof/KernelFinal.lean) and the reference's at its composed term, which
    is G of the same arguments (Proof/Bridge.lean) because the precondition makes the edge weights and the edge encoder's
    weight and bias real. -/
theorem algebraic : Cert.algebraic_KernelIdeal_ReferenceIdeal := by
  intro m ρ m' ρ' hpre hagree
  refine ⟨fun c => Cert.KernelIdeal.NodeValue.G m c, Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  obtain ⟨h2, h3, h4⟩ := Cert.FiniteArgs.real_entries _ _ _ _ _ _ _ _ _ (hpre c)
  obtain ⟨e0, e1, e2, e3, e4, e5, e6, e7, e8⟩ := hagree c
  rw [e0, e1, e2, e3, e4, e5, e6, e7, e8]
  exact (Cert.ReferenceIdeal.Read.val_main_v36_eq _ _ _ _ _ _ _ _ _).trans (Cert.Bridge.result_eq m c h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
